-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S1x128 : Shape := ⟨2, ![1, 128]⟩
abbrev S100000x64 : Shape := ⟨2, ![100000, 64]⟩
abbrev S10000x64 : Shape := ⟨2, ![10000, 64]⟩
abbrev S1700000x64 : Shape := ⟨2, ![1700000, 64]⟩
abbrev S1x64 : Shape := ⟨2, ![1, 64]⟩

abbrev nBuf : Space → Nat
  | .hbm => 89
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x64, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x64, .f32⟩
  | .hbm, ⟨79, _⟩ => ⟨S1700000x1, .f32⟩
  | .hbm, ⟨80, _⟩ => ⟨S1700000x64, .f32⟩
  | .hbm, ⟨81, _⟩ => ⟨S1700000x64, .f32⟩
  | .hbm, ⟨82, _⟩ => ⟨S_, .f32⟩
  | .hbm, ⟨83, _⟩ => ⟨S100000x64, .f32⟩
  | .hbm, ⟨84, _⟩ => ⟨S1700000x1, .i32⟩
  | .hbm, ⟨85, _⟩ => ⟨S100000x64, .f32⟩
  | .hbm, ⟨86, _⟩ => ⟨S1x64, .f32⟩
  | .hbm, ⟨87, _⟩ => ⟨S100000x64, .f32⟩
  | .hbm, ⟨88, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S128x64, .f32⟩
  | .local _ .vmem, ⟨8, _⟩ => ⟨S10000x64, .f32⟩
  | .local _ .vmem, ⟨9, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S10000x128_S10000x128 : S10000x128.ShapeCasts S10000x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 89
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x64, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x64, .f32⟩
  | .hbm, ⟨79, _⟩ => ⟨S1700000x1, .f32⟩
  | .hbm, ⟨80, _⟩ => ⟨S1700000x64, .f32⟩
  | .hbm, ⟨81, _⟩ => ⟨S1700000x64, .f32⟩
  | .hbm, ⟨82, _⟩ => ⟨S_, .f32⟩
  | .hbm, ⟨83, _⟩ => ⟨S100000x64, .f32⟩
  | .hbm, ⟨84, _⟩ => ⟨S1700000x1, .i32⟩
  | .hbm, ⟨85, _⟩ => ⟨S100000x64, .f32⟩
  | .hbm, ⟨86, _⟩ => ⟨S1x64, .f32⟩
  | .hbm, ⟨87, _⟩ => ⟨S100000x64, .f32⟩
  | .hbm, ⟨88, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.RowTile.lean ====
/-
  A tile of rows times the whole weight matrix, entry by entry, on the extended reals.

  At one grid point each matmul kernel holds a tile `x` of 10000 consecutive rows (10000 × 128) and the whole weight
  matrix `w` (128 × n, with n = 128 in the first layer and n = 64 in the second). It changes both to bf16 — on
  extended reals a change of float format is the identity — and multiplies them into an accumulator of zeros. So
  entry (p, q) of what the point stores is the plain inner product of row p of the tile with column q of the weights,

      ∑ₖ x(p, k) · w(k, q)      over the 128 inner positions k,

  with nothing rounded, nothing regrouped, and nothing added by the zero accumulator. The second layer's kernel also
  passes its tile through a reshape to the shape it already has, which changes no entry.
-/
import proofs.«170687_j4148938408753_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.RowTile

open Cert.KernelIdeal Cert.KernelIdeal.Gen Idealize.ShloMosaic Idealize.ShloMosaic.ValueIdx

/-! ## First layer: a 10000 × 128 tile times the 128 × 128 weights -/

/-- The first layer's product: contract the tile's axis 1 with the weights' axis 0. -/
abbrev D₁ : DotDims S10000x128 S128x128 S10000x128 := dot_S10000x128_S128x128_S10000x128_1_0_0_1_n_n

/-- The inner axis of the first layer's product has one coordinate, running over 128 positions. -/
abbrev inner₁ : (D₁).contr.Idx ≃ Fin 128 := contrEquiv1 (D₁) 128 rfl rfl

/-- The tile's axis 0 is free: the product reads the tile in the output entry's own row. -/
theorem left_row₁ (i : S10000x128.Idx) (κ : (D₁).contr.Idx) : ((D₁).lhsIdx i κ 0).val = (i 0).val := by
  unfold DotDims.lhsIdx
  rw [dif_neg (show ¬(0 : Fin S10000x128.rank) ∈ (D₁).lhsBatch by decide),
    dif_pos (show (0 : Fin S10000x128.rank) ∈ (D₁).lhsNonContracting by decide)]
  rfl

/-- The weights' axis 1 is free: the product reads the weights in the output entry's own column. -/
theorem right_col₁ (i : S10000x128.Idx) (κ : (D₁).contr.Idx) : ((D₁).rhsIdx i κ 1).val = (i 1).val := by
  unfold DotDims.rhsIdx
  rw [dif_neg (show ¬(1 : Fin S128x128.rank) ∈ (D₁).rhsBatch by decide),
    dif_pos (show (1 : Fin S128x128.rank) ∈ (D₁).rhsNonContracting by decide)]
  rfl

/-- At output entry (p, q) and inner position k the product reads the tile at (p, k): the row is the output's row
    (axis 0 is the tile's free axis) and the column is the inner position (axis 1 is contracted). -/
theorem left₁ (p : Fin 10000) (q : Fin 128) (k : Fin 128) :
    (D₁).lhsIdx (ix2 p q) (inner₁.symm k) = ix2 p k := by
  funext a; apply Fin.ext
  match a with
  | ⟨0, _⟩ => exact left_row₁ _ _
  | ⟨1, _⟩ =>
    exact ((D₁).lhsIdx_val_of_single rfl (ix2 p q) (inner₁.symm k)).trans (contrEquiv1_symm_val (D₁) 128 rfl rfl k)

/-- … and the weights at (k, q): the row is the inner position (axis 0 is contracted) and the column is the
    output's column (axis 1 is the weights' free axis). -/
theorem right₁ (p : Fin 10000) (q : Fin 128) (k : Fin 128) :
    (D₁).rhsIdx (ix2 p q) (inner₁.symm k) = ix2 k q := by
  funext a; apply Fin.ext
  match a with
  | ⟨0, _⟩ =>
    exact ((D₁).rhsIdx_val_of_single rfl (ix2 p q) (inner₁.symm k)).trans (contrEquiv1_symm_val (D₁) 128 rfl rfl k)
  | ⟨1, _⟩ => exact right_col₁ _ _

/-- Entry (p, q) of what a grid point of the first layer's kernel stores is the inner product of row p of its tile
    with column q of the weights. -/
theorem entry₁ (x : Vec Ideal S10000x128 .f32) (w : Vec Ideal S128x128 .f32) (p : Fin 10000) (q : Fin 128) :
    k0_pay1 (F := Ideal) x w (ix2 p q) = ∑ k : Fin 128, x (ix2 p k) * w (ix2 k q) := by
  unfold k0_pay1
  refine (Ideal.matmul_constant_zero_apply (D₁) none _ _ (ix2 p q)).trans ?_
  rw [← Equiv.sum_comp inner₁.symm]
  refine Finset.sum_congr rfl fun k _ => ?_
  rw [left₁ p q k, right₁ p q k]
  rfl

/-! ## Second layer: a 10000 × 128 tile times the 128 × 64 weights -/

/-- The second layer's product: contract the tile's axis 1 with the weights' axis 0. -/
abbrev D₂ : DotDims S10000x128 S128x64 S10000x64 := dot_S10000x128_S128x64_S10000x64_1_0_0_1_n_n

/-- The inner axis of the second layer's product has one coordinate, running over 128 positions. -/
abbrev inner₂ : (D₂).contr.Idx ≃ Fin 128 := contrEquiv1 (D₂) 128 rfl rfl

/-- The tile's axis 0 is free: the product reads the tile in the output entry's own row. -/
theorem left_row₂ (i : S10000x64.Idx) (κ : (D₂).contr.Idx) : ((D₂).lhsIdx i κ 0).val = (i 0).val := by
  unfold DotDims.lhsIdx
  rw [dif_neg (show ¬(0 : Fin S10000x128.rank) ∈ (D₂).lhsBatch by decide),
    dif_pos (show (0 : Fin S10000x128.rank) ∈ (D₂).lhsNonContracting by decide)]
  rfl

/-- The weights' axis 1 is free: the product reads the weights in the output entry's own column. -/
theorem right_col₂ (i : S10000x64.Idx) (κ : (D₂).contr.Idx) : ((D₂).rhsIdx i κ 1).val = (i 1).val := by
  unfold DotDims.rhsIdx
  rw [dif_neg (show ¬(1 : Fin S128x64.rank) ∈ (D₂).rhsBatch by decide),
    dif_pos (show (1 : Fin S128x64.rank) ∈ (D₂).rhsNonContracting by decide)]
  rfl

/-- At output entry (p, q) and inner position k the product reads the tile at (p, k). -/
theorem left₂ (p : Fin 10000) (q : Fin 64) (k : Fin 128) :
    (D₂).lhsIdx (ix2 p q) (inner₂.symm k) = ix2 p k := by
  funext a; apply Fin.ext
  match a with
  | ⟨0, _⟩ => exact left_row₂ _ _
  | ⟨1, _⟩ =>
    exact ((D₂).lhsIdx_val_of_single rfl (ix2 p q) (inner₂.symm k)).trans (contrEquiv1_symm_val (D₂) 128 rfl rfl k)

/-- … and the weights at (k, q). -/
theorem right₂ (p : Fin 10000) (q : Fin 64) (k : Fin 128) :
    (D₂).rhsIdx (ix2 p q) (inner₂.symm k) = ix2 k q := by
  funext a; apply Fin.ext
  match a with
  | ⟨0, _⟩ =>
    exact ((D₂).rhsIdx_val_of_single rfl (ix2 p q) (inner₂.symm k)).trans (contrEquiv1_symm_val (D₂) 128 rfl rfl k)
  | ⟨1, _⟩ => exact right_col₂ _ _

/-- Entry (p, q) of what a grid point of the second layer's kernel stores is the inner product of row p of its
    tile with column q of the weights: the reshape of the tile to its own shape moves no entry. -/
theorem entry₂ (x : Vec Ideal S10000x128 .f32) (w : Vec Ideal S128x64 .f32) (p : Fin 10000) (q : Fin 64) :
    k1_pay1 (F := Ideal) x w (ix2 p q) = ∑ k : Fin 128, x (ix2 p k) * w (ix2 k q) := by
  unfold k1_pay1
  refine (Ideal.matmul_constant_zero_apply (D₂) none _ _ (ix2 p q)).trans ?_
  rw [← Equiv.sum_comp inner₂.symm]
  refine Finset.sum_congr rfl fun k _ => ?_
  rw [left₂ p q k, right₂ p q k]
  show (shapeCast S10000x128 x _) (ix2 p k) * w (ix2 k q) = _
  rw [shapeCast_self]

end Cert.KernelIdeal.RowTile

end
-- ==== Proof.TiledProduct.lean ====
/-
  The ten row tiles of a product assemble to the whole product.

  Each matmul kernel runs over ten grid points. At point t it holds rows 10000·t … 10000·t + 9999 of its left array
  and the whole weight matrix, and writes back rows 10000·t … 10000·t + 9999 of its output. Row r of a product
  A · W depends on row r of A only: entry (r, q) is ∑ₖ A(r, k) · W(k, q). So what point t writes back is exactly
  rows 10000·t … of the whole product A · W, the ten write-backs are ten disjoint bands that together cover all
  100000 rows, and after the last point the output array holds A · W — the same function of the two arrays as one
  whole matrix product, entry by entry and with the same 128-term sum in each entry.
-/
import proofs.«170687_j4148938408753_1_alg».proof.Proof.Gen.KernelIdeal.Frame
import proofs.«170687_j4148938408753_1_alg».proof.Proof.RowTile
import proofs.«170687_j4148938408753_1_alg».proof.Proof.RefRead
import Idealize.ShloMosaic.Lib.Pipeline.Value

set_option maxRecDepth 16384

noncomputable section

namespace Cert.KernelIdeal.TiledProduct

open Cert.KernelIdeal Cert.KernelIdeal.Gen
open Idealize.ShloMosaic Idealize.ShloMosaic.TcCoe Idealize.ShloMosaic.ValueIdx Idealize.SL.Sem
open Idealize.ShloMosaic.Pipeline (Dat)
open Cert.ReferenceIdeal.ReadP (val_main_v30 val_main_v30_apply lidx_main_v30 ridx_main_v30
  lidx_main_v48 ridx_main_v48 lhs_main_v48_0 lhs_main_v48_1 rhs_main_v48_0 rhs_main_v48_1)

-- the contents of the unscoped buffers when a kernel region is entered
variable (V : (c : Dev nD) → (b : Ref sig .tc) → Buf (Elt Ideal) ((c : Thread nD τ).loc b))

/-- Every access of a kernel body starts at the origin of its tile. -/
theorem origin : (![0, 0] : Fin 2 → Nat) = fun _ => 0 := funext fun a => by fin_cases a <;> rfl

/-! ## First layer -/

/-- At every grid point the left tile is the band of rows the output tile is, the weights are taken whole, every
    tile spans all columns, and the band's number is at most 9. -/
theorem bands₁ : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Each of the ten bands is some grid point's. -/
theorem every_band₁ : ∀ b : Fin 10, ∃ t : Fin cfg0.N, win0_2.index t = ![b.val, 0] :=
  (by decide +kernel : ∀ b : Fin 10, ∃ t : Fin grid0.N, win0_2.index t = ![b.val, 0])

/-- A tile of the product is the product of the tile. If row p of the tile `x` is row (i 0) of `A`, and `w` is `W`,
    then entry (p, q) of the tile's product with `w` is entry `i` of the whole product `A · W`, where q = i 1. -/
theorem tile_entry₁ (A : (⟨Cert.ReferenceIdeal.S100000x128, .f32⟩ : BufTy).Contents (Elt Ideal))
    (W : (⟨Cert.ReferenceIdeal.S128x128, .f32⟩ : BufTy).Contents (Elt Ideal))
    (x : Vec Ideal S10000x128 .f32) (w : Vec Ideal S128x128 .f32)
    (i : Cert.ReferenceIdeal.S100000x128.Idx) (p : Fin 10000) (q : Fin 128)
    (hx : ∀ k : Fin 128, x (ix2 p k) = A (lidx_main_v30 i k))
    (hw : ∀ k : Fin 128, w (ix2 k q) = W (ridx_main_v30 i k)) :
    k0_pay1 (F := Ideal) x w (ix2 p q) = val_main_v30 (F := Ideal) A W i := by
  rw [RowTile.entry₁, val_main_v30_apply]
  exact Finset.sum_congr rfl fun k _ => by rw [hx k, hw k]

/-- What grid point t writes back is band t of the whole product of the two arrays as the region finds them. -/
theorem written₁ (c : Dev nD) (t : Fin cfg0.N) :
    (dat0 V c).flushed 2 t = ((cfg0.win 2).blk t).view.read (Elt Ideal)
      (val_main_v30 (F := Ideal) (V c main_arg0) (V c main_arg2)) := by
  show (cfg0.win 2).cut (grid0.coords t) ((dat0 V c).after 2 t) = _
  rw [after0_2]
  unfold out0_2
  rw [View.canon_unit_zero origin]
  simp only [View.ld_unit_zero (S := S10000x128) origin, View.ld_unit_zero (S := S128x128) origin]
  obtain ⟨e0, e1, e2, e3, e4, e5⟩ := bands₁ t
  funext j
  obtain ⟨p, q, rfl⟩ : ∃ (p : Fin 10000) (q : Fin 128), j = ix2 p q := ⟨j 0, j 1, eq_ix2 j⟩
  refine tile_entry₁ (V c main_arg0) (V c main_arg2) (iblk0 V c 0 t) (iblk0 V c 1 t)
    (((cfg0.win 2).blk t).view.emb (ix2 p q)) p q (fun k => ?_) (fun k => ?_)
  · -- row p of the left tile is row 10000·(band) + p of the left array
    show V c main_arg0 (((cfg0.win 0).blk t).view.emb (ix2 p k))
      = V c main_arg0 (lidx_main_v30 (((cfg0.win 2).blk t).view.emb (ix2 p q)) k)
    refine congrArg (V c main_arg0) (funext fun a => Fin.ext ?_)
    match a with
    | ⟨0, _⟩ => show win0_0.index t (0 : Fin 2) * 10000 + 1 * p.val = win0_2.index t (0 : Fin 2) * 10000 + 1 * p.val; omega
    | ⟨1, _⟩ => show win0_0.index t (1 : Fin 2) * 128 + 1 * k.val = k.val; omega
  · -- the weights are held whole
    show V c main_arg2 (((cfg0.win 1).blk t).view.emb (ix2 k q))
      = V c main_arg2 (ridx_main_v30 (((cfg0.win 2).blk t).view.emb (ix2 p q)) k)
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega

/-- An index of the output array lies in band t iff each coordinate lies in the band's range on its axis. -/
theorem in_band₁ (t : Fin cfg0.N) (i : S100000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v30).slice (win0_2.rect t)).set ↔ _
  rw [View.set_slice_whole, Rect.mem_set_unit]
  exact Iff.rfl

/-- The ten bands cover the output: row r lies in band r / 10000. -/
theorem covered₁ (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := every_band₁ ⟨(i 0).val / 10000, by omega⟩
  have b0 : win0_2.index t (0 : Fin 2) = (i 0).val / 10000 := congrFun ht 0
  have b1 : win0_2.index t (1 : Fin 2) = 0 := congrFun ht 1
  refine ⟨t, flush0_2 t, ?_⟩
  rw [in_band₁]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- After its ten grid points the first kernel's output array holds the whole product of the two arrays the region
    found: the left array times the weights, entry by entry. -/
theorem product₁ (c : Dev nD) :
    (dat0 V c).arrAt 2 cfg0.N = val_main_v30 (F := Ideal) (V c main_arg0) (V c main_arg2) :=
  (dat0 V c).arrAt_eq_of_cover 2 _ (fun t _ => written₁ V c t) covered₁

/-! ## Second layer -/

/-- At every grid point the left tile is the band of rows the output tile is, the weights are taken whole, every
    tile spans all columns, and the band's number is at most 9. -/
theorem bands₂ : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 9 :=
  (by decide +kernel : ∀ t : Fin grid1.N, _)

/-- Each of the ten bands is some grid point's. -/
theorem every_band₂ : ∀ b : Fin 10, ∃ t : Fin cfg1.N, win1_2.index t = ![b.val, 0] :=
  (by decide +kernel : ∀ b : Fin 10, ∃ t : Fin grid1.N, win1_2.index t = ![b.val, 0])

/-- The whole second-layer product of a left array `A` (100000 × 128) with weights `W` (128 × 64): one matrix
    product on the host, contracting `A`'s axis 1 with `W`'s axis 0. -/
abbrev wholeProduct₂ (A : (⟨Cert.ReferenceIdeal.S100000x128, .f32⟩ : BufTy).Contents (Elt Ideal))
    (W : (⟨Cert.ReferenceIdeal.S128x64, .f32⟩ : BufTy).Contents (Elt Ideal)) :
    (⟨Cert.ReferenceIdeal.S100000x64, .f32⟩ : BufTy).Contents (Elt Ideal) :=
  Host.dotGeneral (F := Ideal) (φ₁ := .f32) (φ₂ := .f32) Cert.ReferenceIdeal.dot_S100000x128_S128x64_S100000x64_1_0_0_1_n_n none A W

/-- Entry `i` of the whole product is the inner product of row (i 0) of `A` with column (i 1) of `W`. -/
theorem wholeProduct₂_entry (A : (⟨Cert.ReferenceIdeal.S100000x128, .f32⟩ : BufTy).Contents (Elt Ideal))
    (W : (⟨Cert.ReferenceIdeal.S128x64, .f32⟩ : BufTy).Contents (Elt Ideal)) (i : Cert.ReferenceIdeal.S100000x64.Idx) :
    wholeProduct₂ A W i = ∑ k : Fin 128, A (lidx_main_v48 i k) * W (ridx_main_v48 i k) := by
  show Host.dotGeneral (F := Ideal) (φ₁ := .f32) (φ₂ := .f32) Cert.ReferenceIdeal.dot_S100000x128_S128x64_S100000x64_1_0_0_1_n_n none A W i = _
  simp only [Host.dotGeneral]
  rw [Ideal.dotGeneral_apply, ← Equiv.sum_comp (ValueIdx.contrEquiv1 Cert.ReferenceIdeal.dot_S100000x128_S128x64_S100000x64_1_0_0_1_n_n 128 rfl rfl).symm]
  refine Finset.sum_congr rfl fun k _ => ?_
  have hk := ValueIdx.contrEquiv1_symm_val Cert.ReferenceIdeal.dot_S100000x128_S128x64_S100000x64_1_0_0_1_n_n 128 rfl rfl k
  have el : Cert.ReferenceIdeal.dot_S100000x128_S128x64_S100000x64_1_0_0_1_n_n.lhsIdx i ((ValueIdx.contrEquiv1 Cert.ReferenceIdeal.dot_S100000x128_S128x64_S100000x64_1_0_0_1_n_n 128 rfl rfl).symm k) = lidx_main_v48 i k := funext fun a => Fin.ext (by
    match a with
    | ⟨0, _⟩ => exact lhs_main_v48_0 _ _
    | ⟨1, _⟩ => exact (lhs_main_v48_1 _ _).trans hk)
  have er : Cert.ReferenceIdeal.dot_S100000x128_S128x64_S100000x64_1_0_0_1_n_n.rhsIdx i ((ValueIdx.contrEquiv1 Cert.ReferenceIdeal.dot_S100000x128_S128x64_S100000x64_1_0_0_1_n_n 128 rfl rfl).symm k) = ridx_main_v48 i k := funext fun a => Fin.ext (by
    match a with
    | ⟨0, _⟩ => exact (rhs_main_v48_0 _ _).trans hk
    | ⟨1, _⟩ => exact rhs_main_v48_1 _ _)
  rw [el, er]

/-- A tile of the product is the product of the tile. If row p of the tile `x` is row (i 0) of `A`, and `w` is `W`,
    then entry (p, q) of the tile's product with `w` is entry `i` of the whole product `A · W`, where q = i 1. -/
theorem tile_entry₂ (A : (⟨Cert.ReferenceIdeal.S100000x128, .f32⟩ : BufTy).Contents (Elt Ideal))
    (W : (⟨Cert.ReferenceIdeal.S128x64, .f32⟩ : BufTy).Contents (Elt Ideal))
    (x : Vec Ideal S10000x128 .f32) (w : Vec Ideal S128x64 .f32)
    (i : Cert.ReferenceIdeal.S100000x64.Idx) (p : Fin 10000) (q : Fin 64)
    (hx : ∀ k : Fin 128, x (ix2 p k) = A (lidx_main_v48 i k))
    (hw : ∀ k : Fin 128, w (ix2 k q) = W (ridx_main_v48 i k)) :
    k1_pay1 (F := Ideal) x w (ix2 p q) = wholeProduct₂ A W i := by
  rw [RowTile.entry₂, wholeProduct₂_entry]
  exact Finset.sum_congr rfl fun k _ => by rw [hx k, hw k]

/-- What grid point t writes back is band t of the whole product of the two arrays as the region finds them. -/
theorem written₂ (c : Dev nD) (t : Fin cfg1.N) :
    (dat1 V c).flushed 2 t = ((cfg1.win 2).blk t).view.read (Elt Ideal)
      (wholeProduct₂ (V c main_v47) (V c main_arg4)) := by
  show (cfg1.win 2).cut (grid1.coords t) ((dat1 V c).after 2 t) = _
  rw [after1_2]
  unfold out1_2
  rw [View.canon_unit_zero origin]
  simp only [View.ld_unit_zero (S := S10000x128) origin, View.ld_unit_zero (S := S128x64) origin]
  obtain ⟨e0, e1, e2, e3, e4, e5⟩ := bands₂ t
  funext j
  obtain ⟨p, q, rfl⟩ : ∃ (p : Fin 10000) (q : Fin 64), j = ix2 p q := ⟨j 0, j 1, eq_ix2 j⟩
  refine tile_entry₂ (V c main_v47) (V c main_arg4) (iblk1 V c 0 t) (iblk1 V c 1 t)
    (((cfg1.win 2).blk t).view.emb (ix2 p q)) p q (fun k => ?_) (fun k => ?_)
  · -- row p of the left tile is row 10000·(band) + p of the left array
    show V c main_v47 (((cfg1.win 0).blk t).view.emb (ix2 p k))
      = V c main_v47 (lidx_main_v48 (((cfg1.win 2).blk t).view.emb (ix2 p q)) k)
    refine congrArg (V c main_v47) (funext fun a => Fin.ext ?_)
    match a with
    | ⟨0, _⟩ => show win1_0.index t (0 : Fin 2) * 10000 + 1 * p.val = win1_2.index t (0 : Fin 2) * 10000 + 1 * p.val; omega
    | ⟨1, _⟩ => show win1_0.index t (1 : Fin 2) * 128 + 1 * k.val = k.val; omega
  · -- the weights are held whole
    show V c main_arg4 (((cfg1.win 1).blk t).view.emb (ix2 k q))
      = V c main_arg4 (ridx_main_v48 (((cfg1.win 2).blk t).view.emb (ix2 p q)) k)
    refine congrArg (V c main_arg4) (funext fun a => Fin.ext ?_)
    match a with
    | ⟨0, _⟩ => show win1_1.index t (0 : Fin 2) * 128 + 1 * k.val = k.val; omega
    | ⟨1, _⟩ => show win1_1.index t (1 : Fin 2) * 64 + 1 * q.val = win1_2.index t (1 : Fin 2) * 64 + 1 * q.val; omega

/-- An index of the output array lies in band t iff each coordinate lies in the band's range on its axis. -/
theorem in_band₂ (t : Fin cfg1.N) (i : S100000x64.Idx) :
    i ∈ ((cfg1.win 2).blk t).view.set ↔ ∀ a : Fin 2, win1_2.index t a * S10000x64.size a ≤ (i a).val
      ∧ (i a).val < win1_2.index t a * S10000x64.size a + S10000x64.size a := by
  show i ∈ ((View.whole main_v48).slice (win1_2.rect t)).set ↔ _
  rw [View.set_slice_whole, Rect.mem_set_unit]
  exact Iff.rfl

/-- The ten bands cover the output: row r lies in band r / 10000. -/
theorem covered₂ (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := every_band₂ ⟨(i 0).val / 10000, by omega⟩
  have b0 : win1_2.index t (0 : Fin 2) = (i 0).val / 10000 := congrFun ht 0
  have b1 : win1_2.index t (1 : Fin 2) = 0 := congrFun ht 1
  refine ⟨t, flush1_2 t, ?_⟩
  rw [in_band₂]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- After its ten grid points the second kernel's output array holds the whole product of the two arrays the region
    found: the left array times the weights, entry by entry. -/
theorem product₂ (c : Dev nD) :
    (dat1 V c).arrAt 2 cfg1.N = wholeProduct₂ (V c main_v47) (V c main_arg4) :=
  (dat1 V c).arrAt_eq_of_cover 2 _ (fun t _ => written₂ V c t) covered₂

end Cert.KernelIdeal.TiledProduct

end
-- ==== Proof.ResultRun.lean ====
/-
  Where the result buffer ends, for the program with the two matmul kernels.

  The program is eight segments in a row: three stretches of host operations (the edge bookkeeping and the
  normalisation weights), the first matmul kernel over its ten tiles, two stretches (gather, scale, scatter-add, bias,
  relu), the second matmul kernel, and a last stretch (gather, scale, scatter-add, bias). Each segment takes the
  contents of the unscoped buffers at its start to their contents at its end: a stretch applies its operations in
  order, and a kernel region replaces its three arrays by what its write-backs leave and touches nothing else. Folding
  the eight steps over the launch memory gives the contents at the end. Every fair execution terminates without a
  fault in a state whose unscoped buffers hold exactly that fold; read at the result buffer it is the program's result,
  and read at an argument it is the argument as launched, because no segment writes an argument.
-/
import proofs.«170687_j4148938408753_1_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates, nothing faulting, with
    the result buffer at the fold of the eight segments over the launch memory (`W8`) and every argument as launched. -/
theorem result_at_fold : θ_run defs (onTc (τ := τ) (main (F := F))) ⟨m, fun _ => 0, ρ⟩ (fun r => ∀ c : Dev nD,
      r.2.mem ((c.tc : Thread nD τ).loc main_v64) = W8 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v64 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.ResultRun

end
-- ==== Proof.Stretches.lean ====
/-
  What each stretch of host operations computes, whatever the buffers held before it.

  Between the launch, the two matmul kernels and the return, the program is six stretches of host operations. A
  stretch reads a few buffers and writes others; what it leaves in a buffer is the composition of its operations
  applied to what it read. Each statement below says: if the buffers a stretch reads hold the reference's values (as
  functions of the six arguments), the buffer it is read for holds the reference's next value. The operations are the
  same in both programs, so every statement is a comparison of one composed term with itself; the only place where
  the two spellings differ is the reshape of a row of the edge list, which is settled entry by entry.
-/
import proofs.«170687_j4148938408753_1_alg».proof.Proof.Gen.KernelIdeal.Frame
import proofs.«170687_j4148938408753_1_alg».proof.Proof.RefRead
import Idealize.ShloMosaic.Lib.StableHlo.Run

set_option maxRecDepth 16384
set_option Elab.async false

noncomputable section

namespace Cert.KernelIdeal.Stretches

open Cert.KernelIdeal Cert.KernelIdeal.Gen
open Idealize.ShloMosaic Idealize.ShloMosaic.TcCoe Idealize.SL.Sem Idealize.ShloMosaic.StableHlo
open Cert.ReferenceIdeal.ReadP

variable (Wv : Valuation τ sig (Elt Ideal))
variable (x0 : (⟨Cert.ReferenceIdeal.S100000x128, .f32⟩ : BufTy).Contents (Elt Ideal))
  (x1 : (⟨Cert.ReferenceIdeal.S2x1600000, .i32⟩ : BufTy).Contents (Elt Ideal))
  (x2 : (⟨Cert.ReferenceIdeal.S128x128, .f32⟩ : BufTy).Contents (Elt Ideal))
  (x3 : (⟨Cert.ReferenceIdeal.S128, .f32⟩ : BufTy).Contents (Elt Ideal))
  (x4 : (⟨Cert.ReferenceIdeal.S128x64, .f32⟩ : BufTy).Contents (Elt Ideal))
  (x5 : (⟨Cert.ReferenceIdeal.S64, .f32⟩ : BufTy).Contents (Elt Ideal))

/-! ## The first stretch, in two parts: the edge lists, then the degrees -/

/-- The first seven operations: the two rows of the edge list, each with every node appended once. -/
abbrev edgeOps : List (HloOp τ sig (Elt Ideal)) := (hostOps0 (F := Ideal)).take 7
/-- The other eleven: the count of incoming edges per node, its positivity mask and its inverse square root. -/
abbrev degreeOps : List (HloOp τ sig (Elt Ideal)) := (hostOps0 (F := Ideal)).drop 7

/-- The first stretch is its two parts one after the other. -/
theorem first_stretch : StableHlo.after (hostOps0 (F := Ideal)) Wv = StableHlo.after degreeOps (StableHlo.after edgeOps Wv) := by
  rw [← StableHlo.after_append, List.take_append_drop]

/-- The source list: the edge list's first row, then every node once. The reshape of the row is the one place where
    the two programs' spellings differ; entry by entry they are the same value. -/
theorem sources_part (h1 : Wv (Proc.devRef .tc main_arg1) = x1) :
    StableHlo.after edgeOps Wv (Proc.devRef .tc main_v3) = val_main_v3 (F := Ideal) x1 := by
  subst h1
  simp only [edgeOps, hostOps0, List.take_succ_cons, List.take_zero]
  after_results
  unfold val_main_v3 val_main_v2 val_main_v1 val_main_v0
  refine congrArg (fun f => concatenate S1700000 0 [⟨S1600000, f⟩, ⟨S100000, iotaInDim S100000 32 0⟩]
    concatenates_S1600000_S100000_S1700000_d0) (funext fun i => ?_)
  rfl
/-- The destination list: the edge list's second row, then every node once. -/
theorem destinations_part (h1 : Wv (Proc.devRef .tc main_arg1) = x1) :
    StableHlo.after edgeOps Wv (Proc.devRef .tc main_v6) = val_main_v6 (F := Ideal) x1 := by
  subst h1
  simp only [edgeOps, hostOps0, List.take_succ_cons, List.take_zero]
  after_results
  unfold val_main_v6 val_main_v5 val_main_v4 val_main_v0
  refine congrArg (fun f => concatenate S1700000 0 [⟨S1600000, f⟩, ⟨S100000, iotaInDim S100000 32 0⟩]
    concatenates_S1600000_S100000_S1700000_d0) (funext fun i => ?_)
  rfl
/-- The second part writes neither list. -/
theorem sources_kept : StableHlo.after degreeOps Wv (Proc.devRef .tc main_v3) = Wv (Proc.devRef .tc main_v3) := by
  simp only [degreeOps, hostOps0, List.drop_succ_cons, List.drop_zero]
  after_results
theorem destinations_kept : StableHlo.after degreeOps Wv (Proc.devRef .tc main_v6) = Wv (Proc.devRef .tc main_v6) := by
  simp only [degreeOps, hostOps0, List.drop_succ_cons, List.drop_zero]
  after_results
/-- From the destination list: the mask of the nodes with at least one incoming edge, -/
theorem has_edges_part (h6 : Wv (Proc.devRef .tc main_v6) = val_main_v6 (F := Ideal) x1) :
    StableHlo.after degreeOps Wv (Proc.devRef .tc main_v12) = val_main_v12 (F := Ideal) x1 := by
  simp only [degreeOps, hostOps0, List.drop_succ_cons, List.drop_zero]
  after_results; rw [h6]; rfl
/-- … the inverse square root of every node's count of incoming edges, -/
theorem inv_root_part (h6 : Wv (Proc.devRef .tc main_v6) = val_main_v6 (F := Ideal) x1) :
    StableHlo.after degreeOps Wv (Proc.devRef .tc main_v13) = val_main_v13 (F := Ideal) x1 := by
  simp only [degreeOps, hostOps0, List.drop_succ_cons, List.drop_zero]
  after_results; rw [h6]; rfl
/-- … and the zero that stands in where a node has no incoming edge. -/
theorem zero_fill_part :
    StableHlo.after degreeOps Wv (Proc.devRef .tc main_cst_2) = val_main_cst_2 (F := Ideal) := by
  simp only [degreeOps, hostOps0, List.drop_succ_cons, List.drop_zero]
  after_results; rfl

/-- Over the whole first stretch: the source list, -/
theorem sources (h1 : Wv (Proc.devRef .tc main_arg1) = x1) :
    StableHlo.after (hostOps0 (F := Ideal)) Wv (Proc.devRef .tc main_v3) = val_main_v3 (F := Ideal) x1 := by
  rw [first_stretch]; exact (sources_kept _).trans (sources_part Wv x1 h1)
/-- … the destination list, -/
theorem destinations (h1 : Wv (Proc.devRef .tc main_arg1) = x1) :
    StableHlo.after (hostOps0 (F := Ideal)) Wv (Proc.devRef .tc main_v6) = val_main_v6 (F := Ideal) x1 := by
  rw [first_stretch]; exact (destinations_kept _).trans (destinations_part Wv x1 h1)
/-- … the mask of the nodes with an incoming edge, -/
theorem has_edges (h1 : Wv (Proc.devRef .tc main_arg1) = x1) :
    StableHlo.after (hostOps0 (F := Ideal)) Wv (Proc.devRef .tc main_v12) = val_main_v12 (F := Ideal) x1 := by
  rw [first_stretch]; exact has_edges_part _ x1 (destinations_part Wv x1 h1)
/-- … the inverse square roots of the counts, -/
theorem inv_root (h1 : Wv (Proc.devRef .tc main_arg1) = x1) :
    StableHlo.after (hostOps0 (F := Ideal)) Wv (Proc.devRef .tc main_v13) = val_main_v13 (F := Ideal) x1 := by
  rw [first_stretch]; exact inv_root_part _ x1 (destinations_part Wv x1 h1)
/-- … and the zero fill. -/
theorem zero_fill :
    StableHlo.after (hostOps0 (F := Ideal)) Wv (Proc.devRef .tc main_cst_2) = val_main_cst_2 (F := Ideal) := by
  rw [first_stretch]; exact zero_fill_part _

/-! ## The later stretches -/

/-- The second stretch selects, node by node, the inverse root or the zero. -/
theorem node_scale (h12 : Wv (Proc.devRef .tc main_v12) = val_main_v12 (F := Ideal) x1)
    (h13 : Wv (Proc.devRef .tc main_v13) = val_main_v13 (F := Ideal) x1)
    (hz : Wv (Proc.devRef .tc main_cst_2) = val_main_cst_2 (F := Ideal)) :
    StableHlo.after (hostOps0_1 (F := Ideal)) Wv (Proc.devRef .tc main_v14) = val_main_v14 (F := Ideal) x1 := by
  dsimp only [hostOps0_1]; after_results
  simp only [TRef.toBuf, TRef.ofBuf, cast_eq]
  rw [h12, h13, hz]; rfl
/-- The third stretch weights every edge by its two endpoints' scales. -/
theorem edge_weights (h3 : Wv (Proc.devRef .tc main_v3) = val_main_v3 (F := Ideal) x1)
    (h6 : Wv (Proc.devRef .tc main_v6) = val_main_v6 (F := Ideal) x1)
    (h14 : Wv (Proc.devRef .tc main_v14) = val_main_v14 (F := Ideal) x1) :
    StableHlo.after (hostOps0_2 (F := Ideal)) Wv (Proc.devRef .tc main_v29) = val_main_v29 (F := Ideal) x1 := by
  dsimp only [hostOps0_2]; after_results; rw [h3, h6, h14]; rfl
/-- After the first product: gather its rows by source, scale by the edge weights, add up by destination, add the
    first bias. -/
theorem first_layer (h3 : Wv (Proc.devRef .tc main_v3) = val_main_v3 (F := Ideal) x1)
    (h6 : Wv (Proc.devRef .tc main_v6) = val_main_v6 (F := Ideal) x1)
    (h29 : Wv (Proc.devRef .tc main_v29) = val_main_v29 (F := Ideal) x1)
    (h30 : Wv (Proc.devRef .tc main_v30) = val_main_v30 (F := Ideal) x0 x2)
    (hb : Wv (Proc.devRef .tc main_arg3) = x3) :
    StableHlo.after (hostOps1 (F := Ideal)) Wv (Proc.devRef .tc main_v46) = val_main_v46 (F := Ideal) x0 x1 x2 x3 := by
  subst hb; dsimp only [hostOps1]; after_results; rw [h3, h6, h29, h30]; rfl
/-- The relu between the layers. -/
theorem rectified (h46 : Wv (Proc.devRef .tc main_v46) = val_main_v46 (F := Ideal) x0 x1 x2 x3) :
    StableHlo.after (hostOps1_1 (F := Ideal)) Wv (Proc.devRef .tc main_v47) = val_main_v47 (F := Ideal) x0 x1 x2 x3 := by
  dsimp only [hostOps1_1]; after_results
  simp only [TRef.toBuf, TRef.ofBuf, cast_eq]
  rw [h46]; rfl
/-- After the second product: gather, scale, add up, add the second bias — the result. -/
theorem second_layer (h3 : Wv (Proc.devRef .tc main_v3) = val_main_v3 (F := Ideal) x1)
    (h6 : Wv (Proc.devRef .tc main_v6) = val_main_v6 (F := Ideal) x1)
    (h29 : Wv (Proc.devRef .tc main_v29) = val_main_v29 (F := Ideal) x1)
    (h48 : Wv (Proc.devRef .tc main_v48) = val_main_v48 (F := Ideal) x0 x1 x2 x3 x4)
    (hb : Wv (Proc.devRef .tc main_arg5) = x5) :
    StableHlo.after (hostOps2 (F := Ideal)) Wv (Proc.devRef .tc main_v64) = val_main_v64 (F := Ideal) x0 x1 x2 x3 x4 x5 := by
  subst hb; dsimp only [hostOps2]; after_results; rw [h3, h6, h29, h48]; rfl

end Cert.KernelIdeal.Stretches

end
-- ==== Proof.Stagewise.lean ====
/-
  Segment by segment, the program with the two matmul kernels holds the values the reference computes.

  Both programs are the same two-layer graph convolution. From the edge list they build the source and destination
  lists with a self loop appended for every node, count each node's incoming edges, and weight every edge by the
  inverse square roots of its two endpoints' counts (zero where a count is zero). A layer multiplies the node features by
  its weight matrix, gathers the product's rows by source, scales each by its edge's weight, adds them up by
  destination and adds the bias; a relu sits between the two layers. Everything except the two matrix products is the
  same host operation in both programs, applied to the same kinds of values, so it carries equal values to equal
  values; and each matrix product is the same function of its two arrays whether it is computed in one piece or in ten
  bands of rows. So by induction along the program's eight segments every buffer a later segment reads holds, on
  extended reals, exactly the value the reference's corresponding stage has — and so does the result.
-/
import proofs.«170687_j4148938408753_1_alg».proof.Proof.Gen.KernelIdeal.Frame
import proofs.«170687_j4148938408753_1_alg».proof.Proof.RefRead
import proofs.«170687_j4148938408753_1_alg».proof.Proof.TiledProduct
import proofs.«170687_j4148938408753_1_alg».proof.Proof.Stretches
import Idealize.ShloMosaic.Lib.StableHlo.Run

set_option maxRecDepth 16384
set_option Elab.async false

noncomputable section

namespace Cert.KernelIdeal.Stagewise

open Cert.KernelIdeal Cert.KernelIdeal.Gen
open Idealize.ShloMosaic Idealize.ShloMosaic.TcCoe Idealize.SL.Sem Idealize.ShloMosaic.StableHlo
open Cert.ReferenceIdeal.ReadP Cert.KernelIdeal.Stretches

/-- A buffer that no operation of a stretch writes holds after the stretch what it held before. -/
macro "carried" : tactic => `(tactic|
  exact StableHlo.after_of_forall_not_mem _ _ (List.forall_iff_forall_mem.mp (by
    simp only [hostOps0, hostOps0_1, hostOps0_2, hostOps1, hostOps1_1, hostOps2, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

/-! ## Along the program: what the buffers hold at each boundary between segments -/

variable (m : (ℓ : Loc nD τ sig) → Buf (Elt Ideal) ℓ) (ρ : Dev nD → PrngReg)

/-- After the first stretch the source list is the reference's. -/
theorem src_at1 (c : Dev nD) : W1 m ρ c (Proc.devRef .tc main_v3) = val_main_v3 (F := Ideal) (m ((c : Thread nD τ).loc main_arg1)) :=
  sources (W0 m ρ c) _ rfl
/-- After the first stretch the destination list is the reference's. -/
theorem dst_at1 (c : Dev nD) : W1 m ρ c (Proc.devRef .tc main_v6) = val_main_v6 (F := Ideal) (m ((c : Thread nD τ).loc main_arg1)) :=
  destinations (W0 m ρ c) _ rfl

/-- The node features reach the first kernel as launched. -/
theorem arg0_at3 (c : Dev nD) : W3 m ρ c (Proc.devRef .tc main_arg0) = m ((c : Thread nD τ).loc main_arg0) :=
  calc W3 m ρ c (Proc.devRef .tc main_arg0)
    _ = W2 m ρ c (Proc.devRef .tc main_arg0) := by carried
    _ = W1 m ρ c (Proc.devRef .tc main_arg0) := by carried
    _ = W0 m ρ c (Proc.devRef .tc main_arg0) := by carried
    _ = m ((c : Thread nD τ).loc main_arg0) := rfl

/-- The first weights reach the first kernel as launched. -/
theorem arg2_at3 (c : Dev nD) : W3 m ρ c (Proc.devRef .tc main_arg2) = m ((c : Thread nD τ).loc main_arg2) :=
  calc W3 m ρ c (Proc.devRef .tc main_arg2)
    _ = W2 m ρ c (Proc.devRef .tc main_arg2) := by carried
    _ = W1 m ρ c (Proc.devRef .tc main_arg2) := by carried
    _ = W0 m ρ c (Proc.devRef .tc main_arg2) := by carried
    _ = m ((c : Thread nD τ).loc main_arg2) := rfl

/-- The first bias reaches the stretch after the first kernel as launched. -/
theorem arg3_at4 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := by carried
    _ = W1 m ρ c (Proc.devRef .tc main_arg3) := by carried
    _ = W0 m ρ c (Proc.devRef .tc main_arg3) := by carried
    _ = m ((c : Thread nD τ).loc main_arg3) := rfl

/-- The second weights reach the second kernel as launched. -/
theorem arg4_at6 (c : Dev nD) : W6 m ρ c (Proc.devRef .tc main_arg4) = m ((c : Thread nD τ).loc main_arg4) :=
  calc W6 m ρ c (Proc.devRef .tc main_arg4)
    _ = W5 m ρ c (Proc.devRef .tc main_arg4) := by carried
    _ = W4 m ρ c (Proc.devRef .tc main_arg4) := by carried
    _ = W3 m ρ c (Proc.devRef .tc main_arg4) := W4_of_ne m ρ c main_arg4 (by decide)
    _ = W2 m ρ c (Proc.devRef .tc main_arg4) := by carried
    _ = W1 m ρ c (Proc.devRef .tc main_arg4) := by carried
    _ = W0 m ρ c (Proc.devRef .tc main_arg4) := by carried
    _ = m ((c : Thread nD τ).loc main_arg4) := rfl

/-- The second bias reaches the last stretch as launched. -/
theorem arg5_at7 (c : Dev nD) : W7 m ρ c (Proc.devRef .tc main_arg5) = m ((c : Thread nD τ).loc main_arg5) :=
  calc W7 m ρ c (Proc.devRef .tc main_arg5)
    _ = W6 m ρ c (Proc.devRef .tc main_arg5) := W7_of_ne m ρ c main_arg5 (by decide)
    _ = W5 m ρ c (Proc.devRef .tc main_arg5) := by carried
    _ = W4 m ρ c (Proc.devRef .tc main_arg5) := by carried
    _ = W3 m ρ c (Proc.devRef .tc main_arg5) := W4_of_ne m ρ c main_arg5 (by decide)
    _ = W2 m ρ c (Proc.devRef .tc main_arg5) := by carried
    _ = W1 m ρ c (Proc.devRef .tc main_arg5) := by carried
    _ = W0 m ρ c (Proc.devRef .tc main_arg5) := by carried
    _ = m ((c : Thread nD τ).loc main_arg5) := rfl

/-- The source list is still there when the normalisation weights are computed. -/
theorem src_at2 (c : Dev nD) : W2 m ρ c (Proc.devRef .tc main_v3) = val_main_v3 (F := Ideal) (m ((c : Thread nD τ).loc main_arg1)) :=
  calc W2 m ρ c (Proc.devRef .tc main_v3)
    _ = W1 m ρ c (Proc.devRef .tc main_v3) := by carried
    _ = val_main_v3 (F := Ideal) (m ((c : Thread nD τ).loc main_arg1)) := src_at1 m ρ c

/-- … and after the first kernel, -/
theorem src_at4 (c : Dev nD) : W4 m ρ c (Proc.devRef .tc main_v3) = val_main_v3 (F := Ideal) (m ((c : Thread nD τ).loc main_arg1)) :=
  calc W4 m ρ c (Proc.devRef .tc main_v3)
    _ = W3 m ρ c (Proc.devRef .tc main_v3) := W4_of_ne m ρ c main_v3 (by decide)
    _ = W2 m ρ c (Proc.devRef .tc main_v3) := by carried
    _ = val_main_v3 (F := Ideal) (m ((c : Thread nD τ).loc main_arg1)) := src_at2 m ρ c

/-- … and after the second. -/
theorem src_at7 (c : Dev nD) : W7 m ρ c (Proc.devRef .tc main_v3) = val_main_v3 (F := Ideal) (m ((c : Thread nD τ).loc main_arg1)) :=
  calc W7 m ρ c (Proc.devRef .tc main_v3)
    _ = W6 m ρ c (Proc.devRef .tc main_v3) := W7_of_ne m ρ c main_v3 (by decide)
    _ = W5 m ρ c (Proc.devRef .tc main_v3) := by carried
    _ = W4 m ρ c (Proc.devRef .tc main_v3) := by carried
    _ = val_main_v3 (F := Ideal) (m ((c : Thread nD τ).loc main_arg1)) := src_at4 m ρ c

/-- The destination list is still there when the normalisation weights are computed. -/
theorem dst_at2 (c : Dev nD) : W2 m ρ c (Proc.devRef .tc main_v6) = val_main_v6 (F := Ideal) (m ((c : Thread nD τ).loc main_arg1)) :=
  calc W2 m ρ c (Proc.devRef .tc main_v6)
    _ = W1 m ρ c (Proc.devRef .tc main_v6) := by carried
    _ = val_main_v6 (F := Ideal) (m ((c : Thread nD τ).loc main_arg1)) := dst_at1 m ρ c

/-- … and after the first kernel, -/
theorem dst_at4 (c : Dev nD) : W4 m ρ c (Proc.devRef .tc main_v6) = val_main_v6 (F := Ideal) (m ((c : Thread nD τ).loc main_arg1)) :=
  calc W4 m ρ c (Proc.devRef .tc main_v6)
    _ = W3 m ρ c (Proc.devRef .tc main_v6) := W4_of_ne m ρ c main_v6 (by decide)
    _ = W2 m ρ c (Proc.devRef .tc main_v6) := by carried
    _ = val_main_v6 (F := Ideal) (m ((c : Thread nD τ).loc main_arg1)) := dst_at2 m ρ c

/-- … and after the second. -/
theorem dst_at7 (c : Dev nD) : W7 m ρ c (Proc.devRef .tc main_v6) = val_main_v6 (F := Ideal) (m ((c : Thread nD τ).loc main_arg1)) :=
  calc W7 m ρ c (Proc.devRef .tc main_v6)
    _ = W6 m ρ c (Proc.devRef .tc main_v6) := W7_of_ne m ρ c main_v6 (by decide)
    _ = W5 m ρ c (Proc.devRef .tc main_v6) := by carried
    _ = W4 m ρ c (Proc.devRef .tc main_v6) := by carried
    _ = val_main_v6 (F := Ideal) (m ((c : Thread nD τ).loc main_arg1)) := dst_at4 m ρ c

/-- After the second stretch every node's scale is the reference's. -/
theorem scale_at2 (c : Dev nD) : W2 m ρ c (Proc.devRef .tc main_v14) = val_main_v14 (F := Ideal) (m ((c : Thread nD τ).loc main_arg1)) :=
  node_scale (W1 m ρ c) _ (has_edges (W0 m ρ c) _ rfl) (inv_root (W0 m ρ c) _ rfl) (zero_fill (W0 m ρ c))

/-- After the third stretch the edge weights are the reference's. -/
theorem norm_at3 (c : Dev nD) : W3 m ρ c (Proc.devRef .tc main_v29) = val_main_v29 (F := Ideal) (m ((c : Thread nD τ).loc main_arg1)) :=
  edge_weights (W2 m ρ c) _ (src_at2 m ρ c) (dst_at2 m ρ c) (scale_at2 m ρ c)

/-- The edge weights are still there after the first kernel, -/
theorem norm_at4 (c : Dev nD) : W4 m ρ c (Proc.devRef .tc main_v29) = val_main_v29 (F := Ideal) (m ((c : Thread nD τ).loc main_arg1)) :=
  calc W4 m ρ c (Proc.devRef .tc main_v29)
    _ = W3 m ρ c (Proc.devRef .tc main_v29) := W4_of_ne m ρ c main_v29 (by decide)
    _ = val_main_v29 (F := Ideal) (m ((c : Thread nD τ).loc main_arg1)) := norm_at3 m ρ c

/-- … and after the second. -/
theorem norm_at7 (c : Dev nD) : W7 m ρ c (Proc.devRef .tc main_v29) = val_main_v29 (F := Ideal) (m ((c : Thread nD τ).loc main_arg1)) :=
  calc W7 m ρ c (Proc.devRef .tc main_v29)
    _ = W6 m ρ c (Proc.devRef .tc main_v29) := W7_of_ne m ρ c main_v29 (by decide)
    _ = W5 m ρ c (Proc.devRef .tc main_v29) := by carried
    _ = W4 m ρ c (Proc.devRef .tc main_v29) := by carried
    _ = val_main_v29 (F := Ideal) (m ((c : Thread nD τ).loc main_arg1)) := norm_at4 m ρ c

/-- After the first kernel its output array is the reference's first product: the ten bands assemble to the whole
    product of the features and the first weights, which reached the kernel as launched. -/
theorem product_at4 (c : Dev nD) : W4 m ρ c (Proc.devRef .tc main_v30) = val_main_v30 (F := Ideal) (m ((c : Thread nD τ).loc main_arg0)) (m ((c : Thread nD τ).loc main_arg2)) :=
  (W4_arr m ρ c 2).trans ((TiledProduct.product₁ (V3 m ρ) c).trans (by
    show val_main_v30 (F := Ideal) (W3 m ρ c (Proc.devRef .tc main_arg0)) (W3 m ρ c (Proc.devRef .tc main_arg2)) = _
    rw [arg0_at3 m ρ c, arg2_at3 m ρ c]))

/-- After the stretch that follows it, the first layer's output before the relu is the reference's. -/
theorem layer_at5 (c : Dev nD) : W5 m ρ c (Proc.devRef .tc main_v46) = val_main_v46 (F := Ideal) (m ((c : Thread nD τ).loc main_arg0)) (m ((c : Thread nD τ).loc main_arg1)) (m ((c : Thread nD τ).loc main_arg2)) (m ((c : Thread nD τ).loc main_arg3)) :=
  first_layer (W4 m ρ c) _ _ _ _ (src_at4 m ρ c) (dst_at4 m ρ c) (norm_at4 m ρ c) (product_at4 m ρ c) (arg3_at4 m ρ c)

/-- After the relu the second kernel's left array is the reference's. -/
theorem hidden_at6 (c : Dev nD) : W6 m ρ c (Proc.devRef .tc main_v47) = val_main_v47 (F := Ideal) (m ((c : Thread nD τ).loc main_arg0)) (m ((c : Thread nD τ).loc main_arg1)) (m ((c : Thread nD τ).loc main_arg2)) (m ((c : Thread nD τ).loc main_arg3)) :=
  rectified (W5 m ρ c) _ _ _ _ (layer_at5 m ρ c)

/-- After the second kernel its output array is the reference's second product. -/
theorem product_at7 (c : Dev nD) : W7 m ρ c (Proc.devRef .tc main_v48) = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (W7_arr m ρ c 2).trans ((TiledProduct.product₂ (V6 m ρ) c).trans (by
    show TiledProduct.wholeProduct₂ (W6 m ρ c (Proc.devRef .tc main_v47)) (W6 m ρ c (Proc.devRef .tc main_arg4)) = _
    rw [hidden_at6 m ρ c, arg4_at6 m ρ c]
    rfl))

/-- At the end the result buffer holds the reference's result, as a function of the six argument arrays. -/
theorem result_at8 (c : Dev nD) : W8 m ρ c (Proc.devRef .tc main_v64) = val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  second_layer (W7 m ρ c) _ _ _ _ _ _ (src_at7 m ρ c) (dst_at7 m ρ c) (norm_at7 m ρ c) (product_at7 m ρ c) (arg5_at7 m ρ c)

end Cert.KernelIdeal.Stagewise

end
-- ==== Proof.lean ====
/-
  A two-layer graph convolution with its two matrix products computed by a tiled kernel equals, on the extended reals,
  the same convolution with each product computed in one piece.

  Both programs take node features x (100000 × 128), an edge list (2 × 1600000), and two layers' weights and biases.
  They append a self loop for every node, count each node's incoming edges, and weight every edge by the inverse
  square roots of its endpoints' counts (zero where a count is zero). A layer is: multiply the features by the weight
  matrix, gather the product's rows by source, scale each by its edge's weight, add them up by destination, add the
  bias; a relu sits between the two layers. The kernel program computes each product x · W in ten bands of rows,
  10000 rows per grid point, after changing both operands to bf16; the reference computes it as one product.

  On the extended reals a change of float format is the identity, and row r of a product depends on row r of the left
  factor only: entry (r, q) is ∑ₖ x(r, k) · W(k, q) over the same 128 inner positions whether the rows are taken
  ten thousand at a time or all at once. So each kernel leaves in its output array the very array the reference's
  product is (the ten bands are disjoint and cover all rows), every other operation is the same in both programs, and
  the results agree entry by entry. No sum is regrouped and no factor is moved across a sum, so nothing depends on the
  inputs being finite: the precondition is not used.

  The three frame claims: each program with kernels runs to the end, without a fault and with its arguments unchanged,
  by its launch segment by segment; the reference by its run, every operation a total function. The kernel program's
  idealization rewrote no operation, so there is nothing to preserve.
-/
import proofs.«170687_j4148938408753_1_alg».proof.Defs
import proofs.«170687_j4148938408753_1_alg».proof.Proof.Gen.Kernel
import proofs.«170687_j4148938408753_1_alg».proof.Proof.Gen.Kernel.Skeleton
import proofs.«170687_j4148938408753_1_alg».proof.Proof.Gen.Kernel.Launch
import proofs.«170687_j4148938408753_1_alg».proof.Proof.Gen.Kernel.Points
import proofs.«170687_j4148938408753_1_alg».proof.Proof.Gen.Kernel.Frame
import proofs.«170687_j4148938408753_1_alg».proof.Proof.Gen.KernelIdeal
import proofs.«170687_j4148938408753_1_alg».proof.Proof.Gen.KernelIdeal.Skeleton
import proofs.«170687_j4148938408753_1_alg».proof.Proof.Gen.KernelIdeal.Launch
import proofs.«170687_j4148938408753_1_alg».proof.Proof.Gen.KernelIdeal.Points
import proofs.«170687_j4148938408753_1_alg».proof.Proof.Gen.KernelIdeal.Frame
import proofs.«170687_j4148938408753_1_alg».proof.Proof.Gen.ReferenceIdeal
import proofs.«170687_j4148938408753_1_alg».proof.Proof.RefRun
import proofs.«170687_j4148938408753_1_alg».proof.Proof.RefRead
import proofs.«170687_j4148938408753_1_alg».proof.Proof.Gen.Pre_finite_inputs
import proofs.«170687_j4148938408753_1_alg».proof.Proof.RowTile
import proofs.«170687_j4148938408753_1_alg».proof.Proof.TiledProduct
import proofs.«170687_j4148938408753_1_alg».proof.Proof.ResultRun
import proofs.«170687_j4148938408753_1_alg».proof.Proof.Stretches
import proofs.«170687_j4148938408753_1_alg».proof.Proof.Stagewise
import Idealize.ShloMosaic.Adequacy
import Idealize.ShloMosaic.Init

noncomputable section

namespace Cert.Proof

open Idealize.ShloMosaic Idealize.ShloMosaic.TcCoe Idealize.SL.Sem

/-- The word-level program with the kernels runs to the end with its arguments unchanged. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- The reference runs to the end with its arguments unchanged: its run, with what it says of the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- From memories that agree on the six arguments both programs end with the same result array: the reference's last
    stage as a function of the arguments. The kernel program's result buffer ends at the fold of its segments, which
    holds that value; the reference's run ends at its composed term, which is that stage. -/
theorem algebraic : Cert.algebraic_KernelIdeal_ReferenceIdeal := by
  intro m ρ m' ρ' _ hagree
  refine ⟨fun c => Cert.ReferenceIdeal.ReadP.val_main_v64 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Stagewise.result_at8 m ρ c), (h c).2⟩)
      (Cert.KernelIdeal.ResultRun.result_at_fold (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v64_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
